-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v8_0)) (v2 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_v8_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x28x3 : Shape := ⟨3, ![262144, 28, 3]⟩
abbrev S168x84 : Shape := ⟨2, ![168, 84]⟩
abbrev S168 : Shape := ⟨1, ![168]⟩
abbrev S84x168 : Shape := ⟨2, ![84, 168]⟩
abbrev S_ : Shape := ⟨0, ![]⟩

class Facts : Prop where
  bcast_S_S262144x28x3 : S_.BroadcastsInDim S262144x28x3 (![] : Fin 0 → Fin S262144x28x3.rank)
  reducesTo_S262144x28x3_S_d0_1_2 : S262144x28x3.ReducesTo [0, 1, 2] S_
  h_S_ : 0 < S_.numel
  bcast_S_S168x84 : S_.BroadcastsInDim S168x84 (![] : Fin 0 → Fin S168x84.rank)
  reducesTo_S168x84_S_d0_1 : S168x84.ReducesTo [0, 1] S_
  bcast_S_S168 : S_.BroadcastsInDim S168 (![] : Fin 0 → Fin S168.rank)
  reducesTo_S168_S_d0 : S168.ReducesTo [0] S_
  bcast_S_S84x168 : S_.BroadcastsInDim S84x168 (![] : Fin 0 → Fin S84x168.rank)
  reducesTo_S84x168_S_d0_1 : S84x168.ReducesTo [0, 1] S_

variable [Facts]

def fn_part2 {F : FTy → Type} [FloatOps F] (main_arg7 : FVec F S84x168 .f32) (main_v33 : IVec S_ 1) : IVec S_ 1 :=
  let main_v34 : FVec F S84x168 .f32 := Host.absf main_arg7
  let main_cst_12 : FVec F S_ .f32 := constant S_ .f32 0x7F800000#32
  let main_v35 : FVec F S84x168 .f32 := broadcastInDim S84x168 ![] bcast_S_S84x168 main_cst_12
  let main_v36 : IVec S84x168 1 := cmpf .olt main_v34 main_v35
  let main_c_13 : IVec S_ 1 := constantI S_ 1 1#1
  let main_v37 : IVec S_ 1 := (fun x v => Host.reduce IntOp.andi x v reducesTo_S84x168_S_d0_1 h_S_) main_v36 main_c_13
  let main_v38 : IVec S_ 1 := andi main_v33 main_v37
  main_v38

def fn_part1 {F : FTy → Type} [FloatOps F] (main_arg4 : FVec F S168 .f32) (main_arg5 : FVec F S168x84 .f32) (main_arg6 : FVec F S168x84 .f32) (main_arg7 : FVec F S84x168 .f32) (main_v13 : IVec S_ 1) (main_v16 : IVec S168x84 1) : IVec S_ 1 :=
  let main_c_5 : IVec S_ 1 := constantI S_ 1 1#1
  let main_v17 : IVec S_ 1 := (fun x v => Host.reduce IntOp.andi x v reducesTo_S168x84_S_d0_1 h_S_) main_v16 main_c_5
  let main_v18 : IVec S_ 1 := andi main_v13 main_v17
  let main_v19 : FVec F S168 .f32 := Host.absf main_arg4
  let main_cst_6 : FVec F S_ .f32 := constant S_ .f32 0x7F800000#32
  let main_v20 : FVec F S168 .f32 := broadcastInDim S168 ![] bcast_S_S168 main_cst_6
  let main_v21 : IVec S168 1 := cmpf .olt main_v19 main_v20
  let main_c_7 : IVec S_ 1 := constantI S_ 1 1#1
  let main_v22 : IVec S_ 1 := (fun x v => Host.reduce IntOp.andi x v reducesTo_S168_S_d0 h_S_) main_v21 main_c_7
  let main_v23 : IVec S_ 1 := andi main_v18 main_v22
  let main_v24 : FVec F S168x84 .f32 := Host.absf main_arg5
  let main_cst_8 : FVec F S_ .f32 := constant S_ .f32 0x7F800000#32
  let main_v25 : FVec F S168x84 .f32 := broadcastInDim S168x84 ![] bcast_S_S168x84 main_cst_8
  let main_v26 : IVec S168x84 1 := cmpf .olt main_v24 main_v25
  let main_c_9 : IVec S_ 1 := constantI S_ 1 1#1
  let main_v27 : IVec S_ 1 := (fun x v => Host.reduce IntOp.andi x v reducesTo_S168x84_S_d0_1 h_S_) main_v26 main_c_9
  let main_v28 : IVec S_ 1 := andi main_v23 main_v27
  let main_v29 : FVec F S168x84 .f32 := Host.absf main_arg6
  let main_cst_10 : FVec F S_ .f32 := constant S_ .f32 0x7F800000#32
  let main_v30 : FVec F S168x84 .f32 := broadcastInDim S168x84 ![] bcast_S_S168x84 main_cst_10
  let main_v31 : IVec S168x84 1 := cmpf .olt main_v29 main_v30
  let main_c_11 : IVec S_ 1 := constantI S_ 1 1#1
  let main_v32 : IVec S_ 1 := (fun x v => Host.reduce IntOp.andi x v reducesTo_S168x84_S_d0_1 h_S_) main_v31 main_c_11
  let main_v33 : IVec S_ 1 := andi main_v28 main_v32
  fn_part2 (F := F) main_arg7 main_v33

def fn {F : FTy → Type} [FloatOps F] (main_arg0 : FVec F S262144x28x3 .f32) (main_arg1 : FVec F S168x84 .f32) (main_arg2 : FVec F S168 .f32) (main_arg3 : FVec F S168x84 .f32) (main_arg4 : FVec F S168 .f32) (main_arg5 : FVec F S168x84 .f32) (main_arg6 : FVec F S168x84 .f32) (main_arg7 : FVec F S84x168 .f32) : IVec S_ 1 :=
  let main_v0 : FVec F S262144x28x3 .f32 := Host.absf main_arg0
  let main_cst : FVec F S_ .f32 := constant S_ .f32 0x7F800000#32
  let main_v1 : FVec F S262144x28x3 .f32 := broadcastInDim S262144x28x3 ![] bcast_S_S262144x28x3 main_cst
  let main_v2 : IVec S262144x28x3 1 := cmpf .olt main_v0 main_v1
  let main_c : IVec S_ 1 := constantI S_ 1 1#1
  let main_v3 : IVec S_ 1 := (fun x v => Host.reduce IntOp.andi x v reducesTo_S262144x28x3_S_d0_1_2 h_S_) main_v2 main_c
  let main_v4 : FVec F S168x84 .f32 := Host.absf main_arg1
  let main_cst_0 : FVec F S_ .f32 := constant S_ .f32 0x7F800000#32
  let main_v5 : FVec F S168x84 .f32 := broadcastInDim S168x84 ![] bcast_S_S168x84 main_cst_0
  let main_v6 : IVec S168x84 1 := cmpf .olt main_v4 main_v5
  let main_c_1 : IVec S_ 1 := constantI S_ 1 1#1
  let main_v7 : IVec S_ 1 := (fun x v => Host.reduce IntOp.andi x v reducesTo_S168x84_S_d0_1 h_S_) main_v6 main_c_1
  let main_v8 : IVec S_ 1 := andi main_v3 main_v7
  let main_v9 : FVec F S168 .f32 := Host.absf main_arg2
  let main_cst_2 : FVec F S_ .f32 := constant S_ .f32 0x7F800000#32
  let main_v10 : FVec F S168 .f32 := broadcastInDim S168 ![] bcast_S_S168 main_cst_2
  let main_v11 : IVec S168 1 := cmpf .olt main_v9 main_v10
  let main_c_3 : IVec S_ 1 := constantI S_ 1 1#1
  let main_v12 : IVec S_ 1 := (fun x v => Host.reduce IntOp.andi x v reducesTo_S168_S_d0 h_S_) main_v11 main_c_3
  let main_v13 : IVec S_ 1 := andi main_v8 main_v12
  let main_v14 : FVec F S168x84 .f32 := Host.absf main_arg3
  let main_cst_4 : FVec F S_ .f32 := constant S_ .f32 0x7F800000#32
  let main_v15 : FVec F S168x84 .f32 := broadcastInDim S168x84 ![] bcast_S_S168x84 main_cst_4
  let main_v16 : IVec S168x84 1 := cmpf .olt main_v14 main_v15
  fn_part1 (F := F) main_arg4 main_arg5 main_arg6 main_arg7 main_v13 main_v16
-- ==== Kernel.lean ====
abbrev S262144x28x3 : Shape := ⟨3, ![262144, 28, 3]⟩
abbrev S168x84 : Shape := ⟨2, ![168, 84]⟩
abbrev S168 : Shape := ⟨1, ![168]⟩
abbrev S84x168 : Shape := ⟨2, ![84, 168]⟩
abbrev S1x168 : Shape := ⟨2, ![1, 168]⟩
abbrev S262144x84 : Shape := ⟨2, ![262144, 84]⟩
abbrev S262144x168 : Shape := ⟨2, ![262144, 168]⟩
abbrev S2048x84 : Shape := ⟨2, ![2048, 84]⟩
abbrev S2048x168 : Shape := ⟨2, ![2048, 168]⟩

abbrev nBuf : Space → Nat
  | .hbm => 18
  | .vmem => 11
  | .smem => 0
  | _ => 0

abbrev bufTy : (tb : Table) → Fin (tcTables nBuf tb) → BufTy
  | .hbm, ⟨0, _⟩ => ⟨S262144x28x3, .f32⟩
  | .hbm, ⟨1, _⟩ => ⟨S168x84, .f32⟩
  | .hbm, ⟨2, _⟩ => ⟨S168, .f32⟩
  | .hbm, ⟨3, _⟩ => ⟨S168x84, .f32⟩
  | .hbm, ⟨4, _⟩ => ⟨S168, .f32⟩
  | .hbm, ⟨5, _⟩ => ⟨S168x84, .f32⟩
  | .hbm, ⟨6, _⟩ => ⟨S168x84, .f32⟩
  | .hbm, ⟨7, _⟩ => ⟨S84x168, .f32⟩
  | .hbm, ⟨8, _⟩ => ⟨S168x84, .f32⟩
  | .hbm, ⟨9, _⟩ => ⟨S84x168, .f32⟩
  | .hbm, ⟨10, _⟩ => ⟨S168x84, .f32⟩
  | .hbm, ⟨11, _⟩ => ⟨S168x84, .f32⟩
  | .hbm, ⟨12, _⟩ => ⟨S84x168, .f32⟩
  | .hbm, ⟨13, _⟩ => ⟨S1x168, .f32⟩
  | .hbm, ⟨14, _⟩ => ⟨S1x168, .f32⟩
  | .hbm, ⟨15, _⟩ => ⟨S262144x84, .f32⟩
  | .hbm, ⟨16, _⟩ => ⟨S262144x84, .f32⟩
  | .hbm, ⟨17, _⟩ => ⟨S262144x168, .f32⟩
  | .local _ .vmem, ⟨0, _⟩ => ⟨S2048x84, .f32⟩
  | .local _ .vmem, ⟨1, _⟩ => ⟨S2048x84, .f32⟩
  | .local _ .vmem, ⟨2, _⟩ => ⟨S84x168, .f32⟩
  | .local _ .vmem, ⟨3, _⟩ => ⟨S1x168, .f32⟩
  | .local _ .vmem, ⟨4, _⟩ => ⟨S168x84, .f32⟩
  | .local _ .vmem, ⟨5, _⟩ => ⟨S84x168, .f32⟩
  | .local _ .vmem, ⟨6, _⟩ => ⟨S1x168, .f32⟩
  | .local _ .vmem, ⟨7, _⟩ => ⟨S2048x84, .f32⟩
  | .local _ .vmem, ⟨8, _⟩ => ⟨S2048x84, .f32⟩
  | .local _ .vmem, ⟨9, _⟩ => ⟨S2048x168, .f32⟩
  | .local _ .vmem, ⟨10, _⟩ => ⟨S2048x168, .f32⟩
  | _, _ => ⟨S262144x28x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x84 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S84x168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S168x84 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S84x168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x84 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x168 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S168x84_S84x168_1_0 : S168x84.Transposes [1, 0] S84x168
  transposes_S84x168_S168x84_1_0 : S84x168.Transposes [1, 0] S168x84
  shapeCasts_S168_S1x168 : S168.ShapeCasts S1x168
  shapeCasts_S262144x28x3_S262144x84 : S262144x28x3.ShapeCasts S262144x84
  inb_S2048x84_S2048x84_0_0 : ∀ a, (![0, 0] : Fin 2 → Nat) a + S2048x84.size a ≤ S2048x84.size a
  h_S2048x84 : 0 < S2048x84.numel
  shapeCasts_S2048x84_S2048x84 : S2048x84.ShapeCasts S2048x84
  bitsLt_bf16_f32 : FTy.bits .bf16 < FTy.bits .f32
  inb_S84x168_S84x168_0_0 : ∀ a, (![0, 0] : Fin 2 → Nat) a + S84x168.size a ≤ S84x168.size a
  h_S84x168 : 0 < S84x168.numel
  shapeCasts_S84x168_S84x168 : S84x168.ShapeCasts S84x168
  inb_S1x168_S1x168_0_0 : ∀ a, (![0, 0] : Fin 2 → Nat) a + S1x168.size a ≤ S1x168.size a
  h_S1x168 : 0 < S1x168.numel
  shapeCasts_S1x168_S1x168 : S1x168.ShapeCasts S1x168
  broadcasts_S1x168_S2048x168 : S1x168.Broadcasts S2048x168
  inb_S168x84_S168x84_0_0 : ∀ a, (![0, 0] : Fin 2 → Nat) a + S168x84.size a ≤ S168x84.size a
  h_S168x84 : 0 < S168x84.numel
  shapeCasts_S168x84_S168x84 : S168x84.ShapeCasts S168x84
  inb_S2048x168_S2048x168_0_0 : ∀ a, (![0, 0] : Fin 2 → Nat) a + S2048x168.size a ≤ S2048x168.size a
  h_S2048x168 : 0 < S2048x168.numel
  dot_S2048x84_S84x168_S2048x168_1_0_0_1_n_n_wf : DotDims.WF S2048x84 S84x168 S2048x168 [1] [0] [0] [1] [] []
  dot_S2048x168_S168x84_S2048x84_1_0_0_1_n_n_wf : DotDims.WF S2048x168 S168x84 S2048x84 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x84.size a ≤ S262144x84.size a
  hwx0_0 : ∀ i : grid0.Coords, EltTy.bits .f32 = 32 ∨ (Rect.block (s := S262144x84) S2048x84.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S84x168.size a ≤ S84x168.size a
  hwx0_1 : ∀ i : grid0.Coords, EltTy.bits .f32 = 32 ∨ (Rect.block (s := S84x168) S84x168.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x168.size a ≤ S1x168.size a
  hwx0_2 : ∀ i : grid0.Coords, EltTy.bits .f32 = 32 ∨ (Rect.block (s := S1x168) S1x168.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S168x84.size a ≤ S168x84.size a
  hwx0_3 : ∀ i : grid0.Coords, EltTy.bits .f32 = 32 ∨ (Rect.block (s := S168x84) S168x84.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S84x168.size a ≤ S84x168.size a
  hwx0_4 : ∀ i : grid0.Coords, EltTy.bits .f32 = 32 ∨ (Rect.block (s := S84x168) S84x168.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x168.size a ≤ S1x168.size a
  hwx0_5 : ∀ i : grid0.Coords, EltTy.bits .f32 = 32 ∨ (Rect.block (s := S1x168) S1x168.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x84.size a ≤ S262144x84.size a
  hwx0_6 : ∀ i : grid0.Coords, EltTy.bits .f32 = 32 ∨ (Rect.block (s := S262144x84) S2048x84.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x168.size a ≤ S262144x168.size a
  hwx0_7 : ∀ i : grid0.Coords, EltTy.bits .f32 = 32 ∨ (Rect.block (s := S262144x168) S2048x168.size (cc0_transform_7 i) (hinb0_7 i)).WholeWords (EltTy.packing .f32)

variable [Facts₀]

def dot_S2048x84_S84x168_S2048x168_1_0_0_1_n_n : DotDims S2048x84 S84x168 S2048x168 where
  lhsContracting := [1]
  rhsContracting := [0]
  lhsNonContracting := [0]
  rhsNonContracting := [1]
  lhsBatch := []
  rhsBatch := []
  wf := dot_S2048x84_S84x168_S2048x168_1_0_0_1_n_n_wf
def dot_S2048x168_S168x84_S2048x84_1_0_0_1_n_n : DotDims S2048x168 S168x84 S2048x84 where
  lhsContracting := [1]
  rhsContracting := [0]
  lhsNonContracting := [0]
  rhsNonContracting := [1]
  lhsBatch := []
  rhsBatch := []
  wf := dot_S2048x168_S168x84_S2048x84_1_0_0_1_n_n_wf

abbrev win0_0 : Pipeline.Window sig grid0 :=
  Pipeline.Window.ofSpec (Memref.whole main_v7) S2048x84.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S84x168.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x168.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S168x84.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S84x168.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x168.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S2048x84.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S2048x168.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x28x3 : Shape := ⟨3, ![262144, 28, 3]⟩
abbrev S168x84 : Shape := ⟨2, ![168, 84]⟩
abbrev S168 : Shape := ⟨1, ![168]⟩
abbrev S84x168 : Shape := ⟨2, ![84, 168]⟩
abbrev S262144x84 : Shape := ⟨2, ![262144, 84]⟩
abbrev S262144x168 : Shape := ⟨2, ![262144, 168]⟩
abbrev S1x168 : Shape := ⟨2, ![1, 168]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S262144x28x3, .f32⟩
  | .hbm, ⟨1, _⟩ => ⟨S168x84, .f32⟩
  | .hbm, ⟨2, _⟩ => ⟨S168, .f32⟩
  | .hbm, ⟨3, _⟩ => ⟨S168x84, .f32⟩
  | .hbm, ⟨4, _⟩ => ⟨S168, .f32⟩
  | .hbm, ⟨5, _⟩ => ⟨S168x84, .f32⟩
  | .hbm, ⟨6, _⟩ => ⟨S168x84, .f32⟩
  | .hbm, ⟨7, _⟩ => ⟨S84x168, .f32⟩
  | .hbm, ⟨8, _⟩ => ⟨S262144x84, .f32⟩
  | .hbm, ⟨9, _⟩ => ⟨S168x84, .f32⟩
  | .hbm, ⟨10, _⟩ => ⟨S84x168, .f32⟩
  | .hbm, ⟨11, _⟩ => ⟨S262144x168, .f32⟩
  | .hbm, ⟨12, _⟩ => ⟨S1x168, .f32⟩
  | .hbm, ⟨13, _⟩ => ⟨S262144x168, .f32⟩
  | .hbm, ⟨14, _⟩ => ⟨S262144x168, .f32⟩
  | .hbm, ⟨15, _⟩ => ⟨S168x84, .f32⟩
  | .hbm, ⟨16, _⟩ => ⟨S262144x84, .f32⟩
  | .hbm, ⟨17, _⟩ => ⟨S_, .f32⟩
  | .hbm, ⟨18, _⟩ => ⟨S262144x84, .f32⟩
  | .hbm, ⟨19, _⟩ => ⟨S262144x84, .i1⟩
  | .hbm, ⟨20, _⟩ => ⟨S_, .f32⟩
  | .hbm, ⟨21, _⟩ => ⟨S262144x84, .f32⟩
  | .hbm, ⟨22, _⟩ => ⟨S262144x84, .f32⟩
  | .hbm, ⟨23, _⟩ => ⟨S262144x84, .f32⟩
  | .hbm, ⟨24, _⟩ => ⟨S168x84, .f32⟩
  | .hbm, ⟨25, _⟩ => ⟨S84x168, .f32⟩
  | .hbm, ⟨26, _⟩ => ⟨S262144x168, .f32⟩
  | .hbm, ⟨27, _⟩ => ⟨S1x168, .f32⟩
  | .hbm, ⟨28, _⟩ => ⟨S262144x168, .f32⟩
  | .hbm, ⟨29, _⟩ => ⟨S262144x168, .f32⟩
  | .hbm, ⟨30, _⟩ => ⟨S_, .f32⟩
  | .hbm, ⟨31, _⟩ => ⟨S262144x168, .f32⟩
  | .hbm, ⟨32, _⟩ => ⟨S262144x168, .i1⟩
  | .hbm, ⟨33, _⟩ => ⟨S_, .f32⟩
  | .hbm, ⟨34, _⟩ => ⟨S262144x168, .f32⟩
  | .hbm, ⟨35, _⟩ => ⟨S262144x168, .f32⟩
  | .hbm, ⟨36, _⟩ => ⟨S262144x168, .f32⟩
  | _, _ => ⟨S262144x28x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  shapeCasts_S262144x28x3_S262144x84 : S262144x28x3.ShapeCasts S262144x84
  transposes_S168x84_S84x168_1_0 : S168x84.Transposes [1, 0] S84x168
  bcast_S168_S1x168_1 : S168.BroadcastsInDim S1x168 (![1] : Fin 1 → Fin S1x168.rank)
  bcast_S1x168_S262144x168_0_1 : S1x168.BroadcastsInDim S262144x168 (![0, 1] : Fin 2 → Fin S262144x168.rank)
  transposes_S84x168_S168x84_1_0 : S84x168.Transposes [1, 0] S168x84
  bcast_S_S262144x84 : S_.BroadcastsInDim S262144x84 (![] : Fin 0 → Fin S262144x84.rank)
  bcast_S_S262144x168 : S_.BroadcastsInDim S262144x168 (![] : Fin 0 → Fin S262144x168.rank)
  dot_S262144x84_S84x168_S262144x168_1_0_0_1_n_n_wf : DotDims.WF S262144x84 S84x168 S262144x168 [1] [0] [0] [1] [] []
  dot_S262144x168_S168x84_S262144x84_1_0_0_1_n_n_wf : DotDims.WF S262144x168 S168x84 S262144x84 [1] [0] [0] [1] [] []

variable [Facts₀]

def dot_S262144x84_S84x168_S262144x168_1_0_0_1_n_n : DotDims S262144x84 S84x168 S262144x168 where
  lhsContracting := [1]
  rhsContracting := [0]
  lhsNonContracting := [0]
  rhsNonContracting := [1]
  lhsBatch := []
  rhsBatch := []
  wf := dot_S262144x84_S84x168_S262144x168_1_0_0_1_n_n_wf
def dot_S262144x168_S168x84_S262144x84_1_0_0_1_n_n : DotDims S262144x168 S168x84 S262144x84 where
  lhsContracting := [1]
  rhsContracting := [0]
  lhsNonContracting := [0]
  rhsNonContracting := [1]
  lhsBatch := []
  rhsBatch := []
  wf := dot_S262144x168_S168x84_S262144x84_1_0_0_1_n_n_wf

class Facts : Prop extends Facts₀ where

variable [Facts]
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.Spec.lean ====
/-
  The encoder, one row at a time, on the extended reals.

  A row `x` of 84 numbers (the 28 edges' three offsets, flattened) goes through
    * a linear layer `x ↦ x · A + b` into 168 numbers (`affine`: `A` is the masked weight matrix, transposed, so entry
      `k` of the result is `∑ l, x l * A l k + b k`),
    * the pooling product with a 168 × 84 matrix `P` that averages pairs of edges (`pooled`),
    * LeakyReLU with slope 0.2 (`leaky`): the first result, 84 numbers (`layer1`);
  and the first result goes through a second linear layer `A'`, `b'` into 168 numbers and LeakyReLU again: the second
  result (`layer2`). `out1` and `out2` are these two results for every row of a 262144 × 84 array.

  The slope and the threshold of LeakyReLU are kept as the f32 words the two programs spell them with
  (`0x3E4CCCCD`, `0x00000000`): the same word on both sides is never evaluated.
-/
import Idealize.ShloMosaic.PureOps.Ideal.Laws
import Idealize.ShloMosaic.Lib.ValueIdx

noncomputable section

namespace Cert.Encoder

open Idealize.ShloMosaic Idealize.ShloMosaic.ValueIdx

/-- LeakyReLU with slope 0.2: `v` where `v ≥ 0`, else `0.2 · v`. -/
def leaky (v : EReal) : EReal :=
  Scalar.select (Ideal.cmp .oge v (Ideal.ofBits .f32 0x00000000#32)) v (Ideal.ofBits .f32 0x3E4CCCCD#32 * v)

/-- A linear layer from 84 to 168 numbers: entry `k` is `∑ l, x l * A l k + b k`. -/
def affine (A : Fin 84 → Fin 168 → EReal) (b : Fin 168 → EReal) (x : Fin 84 → EReal) (k : Fin 168) : EReal :=
  (∑ l : Fin 84, x l * A l k) + b k

/-- The pooling product from 168 to 84 numbers: entry `j` is `∑ k, h k * P k j`. -/
def pooled (P : Fin 168 → Fin 84 → EReal) (h : Fin 168 → EReal) (j : Fin 84) : EReal :=
  ∑ k : Fin 168, h k * P k j

/-- The first result of a row: linear layer, pooling, LeakyReLU. -/
def layer1 (A : Fin 84 → Fin 168 → EReal) (b : Fin 168 → EReal) (P : Fin 168 → Fin 84 → EReal) (x : Fin 84 → EReal)
    (j : Fin 84) : EReal :=
  leaky (pooled P (affine A b x) j)

/-- The second result of a row: the first result through a second linear layer and LeakyReLU. -/
def layer2 (A : Fin 84 → Fin 168 → EReal) (b : Fin 168 → EReal) (P : Fin 168 → Fin 84 → EReal)
    (A' : Fin 84 → Fin 168 → EReal) (b' : Fin 168 → EReal) (x : Fin 84 → EReal) (n : Fin 168) : EReal :=
  leaky (affine A' b' (layer1 A b P x) n)

/-- The first result for every row of `X`: entry `(r, j)` is `layer1` of row `r` at `j`. The matrices are given as
    arrays of their shapes, the biases as vectors of length 168. -/
def out1 (X : (⟨2, ![262144, 84]⟩ : Shape).Idx → EReal) (A : (⟨2, ![84, 168]⟩ : Shape).Idx → EReal)
    (b : (⟨1, ![168]⟩ : Shape).Idx → EReal) (P : (⟨2, ![168, 84]⟩ : Shape).Idx → EReal) :
    (⟨2, ![262144, 84]⟩ : Shape).Idx → EReal := fun i =>
  layer1 (fun l k => A (ix2 l k)) (fun k => b (ix1 k)) (fun k j => P (ix2 k j)) (fun l => X (ix2 (i 0) l)) (i 1)

/-- The second result for every row of `X`: entry `(r, n)` is `layer2` of row `r` at `n`. -/
def out2 (X : (⟨2, ![262144, 84]⟩ : Shape).Idx → EReal) (A : (⟨2, ![84, 168]⟩ : Shape).Idx → EReal)
    (b : (⟨1, ![168]⟩ : Shape).Idx → EReal) (P : (⟨2, ![168, 84]⟩ : Shape).Idx → EReal)
    (A' : (⟨2, ![84, 168]⟩ : Shape).Idx → EReal) (b' : (⟨1, ![168]⟩ : Shape).Idx → EReal) :
    (⟨2, ![262144, 168]⟩ : Shape).Idx → EReal := fun i =>
  layer2 (fun l k => A (ix2 l k)) (fun k => b (ix1 k)) (fun k j => P (ix2 k j)) (fun j n => A' (ix2 j n))
    (fun n => b' (ix1 n)) (fun l => X (ix2 (i 0) l)) (i 1)

end Cert.Encoder

end
-- ==== Proof.Payload.lean ====
/-
  What the kernel body computes from the blocks it loads, read at one entry.

  At a grid point the body holds a block of 2048 rows of the flattened input (2048 × 84), the two transposed masked
  weight matrices (84 × 168 each), the transposed pooling matrix (168 × 84) and the two biases as 1 × 168 rows. It forms
  `rows · A` by a matrix product into a zero accumulator, adds the bias row to every row, multiplies by the pooling matrix,
  applies LeakyReLU (the first stored block), and repeats a product, a bias and LeakyReLU on that block (the second stored
  block). The changes of float format between these steps are the identity on extended reals.

  So entry `(p, q)` of the first stored block is `layer1` of row `p` of the loaded rows at `q`, and entry `(p, n)` of the
  second is `layer2` of that row at `n`: each matrix product read at an entry is the sum over the contracted coordinate of
  the products of the operands' entries, a bias row broadcast down the rows reads its entry of that column, and the
  remaining operations act entry by entry.
-/
import proofs.«130304_j45037027066546_1_alg».proof.Proof.Gen.KernelIdeal.Skeleton
import proofs.«130304_j45037027066546_1_alg».proof.Proof.LibGram
import proofs.«130304_j45037027066546_1_alg».proof.Proof.Spec

noncomputable section

namespace Cert.Encoder.Body

open Idealize.ShloMosaic Idealize.ShloMosaic.ValueIdx Cert.KernelIdeal Cert.KernelIdeal.Gen Cert.Encoder

/-! ## The two matrix products, read at an entry

Each product contracts the left operand's columns with the right operand's rows: at output entry `i` and contracted
coordinate `c` the left operand is read at `(i 0, c)` and the right at `(c, i 1)`. -/

theorem product84_lhs0 (i : S2048x168.Idx) (c : dot_S2048x84_S84x168_S2048x168_1_0_0_1_n_n.contr.Idx) : (dot_S2048x84_S84x168_S2048x168_1_0_0_1_n_n.lhsIdx i c 0).val = (i 0).val := by
  unfold DotDims.lhsIdx
  rw [dif_neg (show ¬(0 : Fin S2048x84.rank) ∈ dot_S2048x84_S84x168_S2048x168_1_0_0_1_n_n.lhsBatch by decide),
    dif_pos (show (0 : Fin S2048x84.rank) ∈ dot_S2048x84_S84x168_S2048x168_1_0_0_1_n_n.lhsNonContracting by decide)]
  rfl
theorem product84_lhs1 (i : S2048x168.Idx) (c : dot_S2048x84_S84x168_S2048x168_1_0_0_1_n_n.contr.Idx) : (dot_S2048x84_S84x168_S2048x168_1_0_0_1_n_n.lhsIdx i c 1).val = (c ⟨0, by decide⟩).val :=
  dot_S2048x84_S84x168_S2048x168_1_0_0_1_n_n.lhsIdx_val_of_single rfl i c
theorem product84_rhs0 (i : S2048x168.Idx) (c : dot_S2048x84_S84x168_S2048x168_1_0_0_1_n_n.contr.Idx) : (dot_S2048x84_S84x168_S2048x168_1_0_0_1_n_n.rhsIdx i c 0).val = (c ⟨0, by decide⟩).val :=
  dot_S2048x84_S84x168_S2048x168_1_0_0_1_n_n.rhsIdx_val_of_single rfl i c
theorem product84_rhs1 (i : S2048x168.Idx) (c : dot_S2048x84_S84x168_S2048x168_1_0_0_1_n_n.contr.Idx) : (dot_S2048x84_S84x168_S2048x168_1_0_0_1_n_n.rhsIdx i c 1).val = (i 1).val := by
  unfold DotDims.rhsIdx
  rw [dif_neg (show ¬(1 : Fin S84x168.rank) ∈ dot_S2048x84_S84x168_S2048x168_1_0_0_1_n_n.rhsBatch by decide),
    dif_pos (show (1 : Fin S84x168.rank) ∈ dot_S2048x84_S84x168_S2048x168_1_0_0_1_n_n.rhsNonContracting by decide)]
  rfl

/-- The 2048 × 84 by 84 × 168 product into zero: entry `(p, k)` is `∑ c, A (p, c) * B (c, k)`. -/
theorem product84_apply {φ₁ φ₂ : FTy} (A : FVec Ideal S2048x84 φ₁) (B : FVec Ideal S84x168 φ₂) (p : Fin 2048) (k : Fin 168) :
    matmul dot_S2048x84_S84x168_S2048x168_1_0_0_1_n_n none A B (constant S2048x168 .f32 0x00000000#32) (ix2 p k)
      = ∑ c : Fin 84, A (ix2 p c) * B (ix2 c k) :=
  Cert.Lib.Gram.matmul_zero_single_apply dot_S2048x84_S84x168_S2048x168_1_0_0_1_n_n 84 rfl rfl none A B (ix2 p k)
    (fun c => ix2 p c) (fun c => ix2 c k)
    (fun c => funext fun a => Fin.ext (by
      have hc := contrEquiv1_symm_val dot_S2048x84_S84x168_S2048x168_1_0_0_1_n_n 84 rfl rfl c
      match a with
      | ⟨0, _⟩ => exact product84_lhs0 _ _
      | ⟨1, _⟩ => exact (product84_lhs1 _ _).trans hc))
    (fun c => funext fun a => Fin.ext (by
      have hc := contrEquiv1_symm_val dot_S2048x84_S84x168_S2048x168_1_0_0_1_n_n 84 rfl rfl c
      match a with
      | ⟨0, _⟩ => exact (product84_rhs0 _ _).trans hc
      | ⟨1, _⟩ => exact product84_rhs1 _ _))

theorem product168_lhs0 (i : S2048x84.Idx) (c : dot_S2048x168_S168x84_S2048x84_1_0_0_1_n_n.contr.Idx) : (dot_S2048x168_S168x84_S2048x84_1_0_0_1_n_n.lhsIdx i c 0).val = (i 0).val := by
  unfold DotDims.lhsIdx
  rw [dif_neg (show ¬(0 : Fin S2048x168.rank) ∈ dot_S2048x168_S168x84_S2048x84_1_0_0_1_n_n.lhsBatch by decide),
    dif_pos (show (0 : Fin S2048x168.rank) ∈ dot_S2048x168_S168x84_S2048x84_1_0_0_1_n_n.lhsNonContracting by decide)]
  rfl
theorem product168_lhs1 (i : S2048x84.Idx) (c : dot_S2048x168_S168x84_S2048x84_1_0_0_1_n_n.contr.Idx) : (dot_S2048x168_S168x84_S2048x84_1_0_0_1_n_n.lhsIdx i c 1).val = (c ⟨0, by decide⟩).val :=
  dot_S2048x168_S168x84_S2048x84_1_0_0_1_n_n.lhsIdx_val_of_single rfl i c
theorem product168_rhs0 (i : S2048x84.Idx) (c : dot_S2048x168_S168x84_S2048x84_1_0_0_1_n_n.contr.Idx) : (dot_S2048x168_S168x84_S2048x84_1_0_0_1_n_n.rhsIdx i c 0).val = (c ⟨0, by decide⟩).val :=
  dot_S2048x168_S168x84_S2048x84_1_0_0_1_n_n.rhsIdx_val_of_single rfl i c
theorem product168_rhs1 (i : S2048x84.Idx) (c : dot_S2048x168_S168x84_S2048x84_1_0_0_1_n_n.contr.Idx) : (dot_S2048x168_S168x84_S2048x84_1_0_0_1_n_n.rhsIdx i c 1).val = (i 1).val := by
  unfold DotDims.rhsIdx
  rw [dif_neg (show ¬(1 : Fin S168x84.rank) ∈ dot_S2048x168_S168x84_S2048x84_1_0_0_1_n_n.rhsBatch by decide),
    dif_pos (show (1 : Fin S168x84.rank) ∈ dot_S2048x168_S168x84_S2048x84_1_0_0_1_n_n.rhsNonContracting by decide)]
  rfl

/-- The 2048 × 168 by 168 × 84 product into zero: entry `(p, j)` is `∑ c, A (p, c) * B (c, j)`. -/
theorem product168_apply {φ₁ φ₂ : FTy} (A : FVec Ideal S2048x168 φ₁) (B : FVec Ideal S168x84 φ₂) (p : Fin 2048) (j : Fin 84) :
    matmul dot_S2048x168_S168x84_S2048x84_1_0_0_1_n_n none A B (constant S2048x84 .f32 0x00000000#32) (ix2 p j)
      = ∑ c : Fin 168, A (ix2 p c) * B (ix2 c j) :=
  Cert.Lib.Gram.matmul_zero_single_apply dot_S2048x168_S168x84_S2048x84_1_0_0_1_n_n 168 rfl rfl none A B (ix2 p j)
    (fun c => ix2 p c) (fun c => ix2 c j)
    (fun c => funext fun a => Fin.ext (by
      have hc := contrEquiv1_symm_val dot_S2048x168_S168x84_S2048x84_1_0_0_1_n_n 168 rfl rfl c
      match a with
      | ⟨0, _⟩ => exact product168_lhs0 _ _
      | ⟨1, _⟩ => exact (product168_lhs1 _ _).trans hc))
    (fun c => funext fun a => Fin.ext (by
      have hc := contrEquiv1_symm_val dot_S2048x168_S168x84_S2048x84_1_0_0_1_n_n 168 rfl rfl c
      match a with
      | ⟨0, _⟩ => exact (product168_rhs0 _ _).trans hc
      | ⟨1, _⟩ => exact product168_rhs1 _ _))

/-! ## A bias row added to every row -/

/-- A 1 × 168 row broadcast down 2048 rows reads, at `(p, k)`, the row's entry `k`. -/
theorem biasRow_apply {α : Type} (v : S1x168.Idx → α) (p : Fin 2048) (k : Fin 168) :
    broadcastTo S2048x168 v broadcasts_S1x168_S2048x168 (ix2 p k) = v (ix2 (0 : Fin 1) k) :=
  broadcastTo_apply v broadcasts_S1x168_S2048x168 (ix2 p k) (ix2 (0 : Fin 1) k) (fun a => by
    match a with
    | ⟨0, _⟩ => show 0 = if (1 : Nat) = 1 then 0 else _; rw [if_pos rfl]
    | ⟨1, _⟩ => show k.val = if (168 : Nat) = 1 then 0 else _; rw [if_neg (by decide)]; rfl)

/-! ## The two stored blocks -/

/-- Entry `(p, q)` of the first stored block is the first result of row `p` of the loaded rows, at `q`. -/
theorem pay1_apply (v0 : Vec Ideal S2048x84 .f32) (v3 : Vec Ideal S84x168 .f32) (v7 : Vec Ideal S1x168 .f32)
    (v12 : Vec Ideal S168x84 .f32) (p : Fin 2048) (q : Fin 84) :
    k0_pay1 (F := Ideal) v0 v3 v7 v12 (ix2 p q)
      = layer1 (fun l k => v3 (ix2 l k)) (fun k => v7 (ix2 (0 : Fin 1) k)) (fun k j => v12 (ix2 k j))
          (fun l => v0 (ix2 p l)) q := by
  unfold k0_pay1
  rw [select_apply, cmpf_apply, mulf_apply, broadcast_apply, broadcast_apply, product168_apply]
  simp only [truncf_apply, addf_apply, product84_apply, shapeCast_self, biasRow_apply]
  rfl

/-- Entry `(p, n)` of the second stored block is the second result of row `p` of the loaded rows, at `n`. -/
theorem pay2_apply (v0 : Vec Ideal S2048x84 .f32) (v3 : Vec Ideal S84x168 .f32) (v7 : Vec Ideal S1x168 .f32)
    (v12 : Vec Ideal S168x84 .f32) (v23 : Vec Ideal S84x168 .f32) (v27 : Vec Ideal S1x168 .f32) (p : Fin 2048) (n : Fin 168) :
    k0_pay2 (F := Ideal) v0 v3 v7 v12 v23 v27 (ix2 p n)
      = layer2 (fun l k => v3 (ix2 l k)) (fun k => v7 (ix2 (0 : Fin 1) k)) (fun k j => v12 (ix2 k j))
          (fun j n => v23 (ix2 j n)) (fun n => v27 (ix2 (0 : Fin 1) n)) (fun l => v0 (ix2 p l)) n := by
  unfold k0_pay2
  rw [select_apply, cmpf_apply, mulf_apply, broadcast_apply, broadcast_apply, addf_apply, product84_apply]
  simp only [truncf_apply, pay1_apply, shapeCast_self, biasRow_apply]
  rfl

end Cert.Encoder.Body

end
-- ==== Proof.Operands.lean ====
/-
  What the kernel's region finds in the arrays its windows stage.

  Before the region the host flattens the input to 262144 × 84, multiplies each weight matrix by its mask and transposes
  the product, transposes the pooling matrix, and makes each bias a 1 × 168 row. These are the contents of the six staged
  arrays when the region is entered; each is read off the list of host operations.
-/
import proofs.«130304_j45037027066546_1_alg».proof.Proof.Gen.KernelIdeal.Frame
import Idealize.ShloMosaic.Lib.StableHlo.Run
import Idealize.ShloMosaic.Lib.Pipeline.Value
import Idealize.ShloMosaic.Lib.ValueIdx

noncomputable section

namespace Cert.Encoder.Operands

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The staged input is the argument flattened to 262144 × 84. -/
theorem flat (c : Dev nD) :
    (V m c main_v7 : S262144x84.Idx → EReal)
      = shapeCast _ (m ((c : Thread nD τ).loc main_arg0)) shapeCasts_S262144x28x3_S262144x84 := by
  dsimp only [Gen.V, Gen.hostOps0]; after_results <;> rfl

/-- The first staged weight matrix is the first weights times their mask, transposed. -/
theorem weights1 (c : Dev nD) :
    (V m c main_v1 : S84x168.Idx → EReal)
      = transpose S84x168 [1, 0] (mulf (F := Ideal) (s := S168x84) (φ := .f32) (m ((c : Thread nD τ).loc main_arg1))
          (m ((c : Thread nD τ).loc main_arg5))) transposes_S168x84_S84x168_1_0 := by
  dsimp only [Gen.V, Gen.hostOps0]; after_results <;> rfl

/-- The staged pooling matrix is the pooling matrix transposed. -/
theorem pool (c : Dev nD) :
    (V m c main_v2 : S168x84.Idx → EReal)
      = transpose S168x84 [1, 0] (m ((c : Thread nD τ).loc main_arg7)) transposes_S84x168_S168x84_1_0 := by
  dsimp only [Gen.V, Gen.hostOps0]; after_results <;> rfl

/-- The second staged weight matrix is the second weights times their mask, transposed. -/
theorem weights2 (c : Dev nD) :
    (V m c main_v4 : S84x168.Idx → EReal)
      = transpose S84x168 [1, 0] (mulf (F := Ideal) (s := S168x84) (φ := .f32) (m ((c : Thread nD τ).loc main_arg3))
          (m ((c : Thread nD τ).loc main_arg6))) transposes_S168x84_S84x168_1_0 := by
  dsimp only [Gen.V, Gen.hostOps0]; after_results <;> rfl

/-- The first staged bias is the first bias as a 1 × 168 row. -/
theorem biasRow1 (c : Dev nD) :
    (V m c main_v5 : S1x168.Idx → EReal) = shapeCast _ (m ((c : Thread nD τ).loc main_arg2)) shapeCasts_S168_S1x168 := by
  dsimp only [Gen.V, Gen.hostOps0]; after_results <;> rfl

/-- The second staged bias is the second bias as a 1 × 168 row. -/
theorem biasRow2 (c : Dev nD) :
    (V m c main_v6 : S1x168.Idx → EReal) = shapeCast _ (m ((c : Thread nD τ).loc main_arg4)) shapeCasts_S168_S1x168 := by
  dsimp only [Gen.V, Gen.hostOps0]; after_results <;> rfl

/-- A length-168 vector made a 1 × 168 row reads, at `(0, k)`, the vector at `k`. -/
theorem row_apply {α : Type} (x : S168.Idx → α) (k : Fin 168) :
    shapeCast S1x168 x shapeCasts_S168_S1x168 (ix2 (0 : Fin 1) k) = x (ix1 k) :=
  shapeCast_apply x shapeCasts_S168_S1x168 _ _ (by
    rw [Shape.rowMajor_val_one, Shape.rowMajor_val_two]
    show k.val = 0 * 168 + k.val
    omega)

end Cert.Encoder.Operands

end
-- ==== Proof.Blocks.lean ====
/-
  From the blocks the grid points write to the two whole result arrays.

  The grid has 128 points; point `t` stages rows `2048 t … 2048 t + 2047` of the flattened input and the whole of each
  matrix and bias row, and writes back rows `2048 t … 2048 t + 2047` of each result. Read at an entry, the block written
  at `t` is the encoder's result of the corresponding row of the flattened input: that is block `t` of the
  whole-array functions `first` and `second` below. Every row `r` lies in the block of point `r / 2048`, so the blocks
  cover both arrays, and each array ends holding its function of the arguments.
-/
import proofs.«130304_j45037027066546_1_alg».proof.Proof.Gen.KernelIdeal.Value
import proofs.«130304_j45037027066546_1_alg».proof.Proof.Payload
import proofs.«130304_j45037027066546_1_alg».proof.Proof.Operands
import proofs.«130304_j45037027066546_1_alg».proof.Proof.Spec

noncomputable section

namespace Cert.Encoder.Blocks

open Idealize.ShloMosaic Idealize.ShloMosaic.TcCoe Idealize.ShloMosaic.ValueIdx Idealize.SL.Sem
open Idealize.ShloMosaic.Pipeline (Dat)
open Cert.KernelIdeal Cert.KernelIdeal.Gen Cert.Encoder

variable (m : (ℓ : Loc nD τ sig) → Buf (Elt Ideal) ℓ) (ρ : Dev nD → PrngReg)

/-! ## The two results as functions of the arguments -/

/-- The input flattened to 262144 × 84. -/
abbrev flatInput (c : Dev nD) : S262144x84.Idx → EReal :=
  shapeCast _ (m ((c : Thread nD τ).loc main_arg0)) shapeCasts_S262144x28x3_S262144x84
/-- The first weights times their mask, transposed. -/
abbrev maskedT1 (c : Dev nD) : S84x168.Idx → EReal :=
  transpose S84x168 [1, 0] (mulf (F := Ideal) (s := S168x84) (φ := .f32) (m ((c : Thread nD τ).loc main_arg1))
    (m ((c : Thread nD τ).loc main_arg5))) transposes_S168x84_S84x168_1_0
/-- The pooling matrix, transposed. -/
abbrev poolT (c : Dev nD) : S168x84.Idx → EReal :=
  transpose S168x84 [1, 0] (m ((c : Thread nD τ).loc main_arg7)) transposes_S84x168_S168x84_1_0
/-- The second weights times their mask, transposed. -/
abbrev maskedT2 (c : Dev nD) : S84x168.Idx → EReal :=
  transpose S84x168 [1, 0] (mulf (F := Ideal) (s := S168x84) (φ := .f32) (m ((c : Thread nD τ).loc main_arg3))
    (m ((c : Thread nD τ).loc main_arg6))) transposes_S168x84_S84x168_1_0

/-- The first result array: `out1` of the flattened input, the prepared matrices and the first bias. -/
def first (c : Dev nD) : S262144x84.Idx → EReal :=
  out1 (flatInput m c) (maskedT1 m c) (m ((c : Thread nD τ).loc main_arg2)) (poolT m c)

/-- The second result array: `out2` of the same and the second weights and bias. -/
def second (c : Dev nD) : S262144x168.Idx → EReal :=
  out2 (flatInput m c) (maskedT1 m c) (m ((c : Thread nD τ).loc main_arg2)) (poolT m c) (maskedT2 m c)
    (m ((c : Thread nD τ).loc main_arg4))

/-! ## Where each window's block sits -/

theorem origin : (![0, 0] : Fin 2 → Nat) = fun _ => 0 := funext fun a => by fin_cases a <;> rfl

/-- The printed index maps, decided over the grid: the input's and the two results' blocks are block `t` along the
    rows, every other window's block is the whole array. -/
theorem blockIndex : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Entry `(p, l)` of the input's block at point `t` is entry `(2048 t + p, l)` of the flattened input. -/
theorem rows_apply (c : Dev nD) (t : Fin cfg0.N) (p : Fin 2048) (l : Fin 84) (k : S262144x84.Idx)
    (hk0 : (k 0).val = t.val * 2048 + p.val) (hk1 : (k 1).val = l.val) :
    (iblk m c 0 t : Vec Ideal S2048x84 .f32) (ix2 p l) = flatInput m c k := by
  obtain ⟨⟨e0, e1⟩, -⟩ := blockIndex t
  refine Eq.trans ?_ (congrFun (Operands.flat m c) k)
  unfold iblk
  rw [View.read_apply]
  show V m c main_v7 _ = V m c main_v7 _
  congr 1
  funext a
  apply Fin.ext
  match a with
  | ⟨0, _⟩ => show win0_0.index t (0 : Fin 2) * 2048 + 1 * p.val = (k 0).val; rw [e0, hk0]; omega
  | ⟨1, _⟩ => show win0_0.index t (1 : Fin 2) * 84 + 1 * l.val = (k 1).val; rw [e1, hk1]; omega

/-- The first weight window's block is the whole prepared matrix. -/
theorem weights1_apply (c : Dev nD) (t : Fin cfg0.N) (l : Fin 84) (k : Fin 168) :
    (iblk m c 1 t : Vec Ideal S84x168 .f32) (ix2 l k) = maskedT1 m c (ix2 l k) := by
  obtain ⟨-, ⟨e0, e1⟩, -⟩ := blockIndex t
  refine Eq.trans ?_ (congrFun (Operands.weights1 m c) (ix2 l k))
  unfold iblk
  rw [View.read_apply]
  show V m c main_v1 _ = V m c main_v1 _
  congr 1
  funext a
  apply Fin.ext
  match a with
  | ⟨0, _⟩ => show win0_1.index t (0 : Fin 2) * 84 + 1 * l.val = l.val; rw [e0]; omega
  | ⟨1, _⟩ => show win0_1.index t (1 : Fin 2) * 168 + 1 * k.val = k.val; rw [e1]; omega

/-- The first bias window's block is the first bias as a row: its entry `(0, k)` is the bias at `k`. -/
theorem bias1_apply (c : Dev nD) (t : Fin cfg0.N) (k : Fin 168) :
    (iblk m c 2 t : Vec Ideal S1x168 .f32) (ix2 (0 : Fin 1) k) = m ((c : Thread nD τ).loc main_arg2) (ix1 k) := by
  obtain ⟨-, -, ⟨e0, e1⟩, -⟩ := blockIndex t
  refine Eq.trans ?_ (Operands.row_apply (m ((c : Thread nD τ).loc main_arg2)) k)
  rw [← Operands.biasRow1 m c]
  unfold iblk
  rw [View.read_apply]
  show V m c main_v5 _ = V m c main_v5 _
  congr 1
  funext a
  apply Fin.ext
  match a with
  | ⟨0, _⟩ => show win0_2.index t (0 : Fin 2) * 1 + 1 * 0 = 0; rw [e0]
  | ⟨1, _⟩ => show win0_2.index t (1 : Fin 2) * 168 + 1 * k.val = k.val; rw [e1]; omega

/-- The pooling window's block is the whole transposed pooling matrix. -/
theorem pool_apply (c : Dev nD) (t : Fin cfg0.N) (k : Fin 168) (j : Fin 84) :
    (iblk m c 3 t : Vec Ideal S168x84 .f32) (ix2 k j) = poolT m c (ix2 k j) := by
  obtain ⟨-, -, -, ⟨e0, e1⟩, -⟩ := blockIndex t
  refine Eq.trans ?_ (congrFun (Operands.pool m c) (ix2 k j))
  unfold iblk
  rw [View.read_apply]
  show V m c main_v2 _ = V m c main_v2 _
  congr 1
  funext a
  apply Fin.ext
  match a with
  | ⟨0, _⟩ => show win0_3.index t (0 : Fin 2) * 168 + 1 * k.val = k.val; rw [e0]; omega
  | ⟨1, _⟩ => show win0_3.index t (1 : Fin 2) * 84 + 1 * j.val = j.val; rw [e1]; omega

/-- The second weight window's block is the whole second prepared matrix. -/
theorem weights2_apply (c : Dev nD) (t : Fin cfg0.N) (j : Fin 84) (n : Fin 168) :
    (iblk m c 4 t : Vec Ideal S84x168 .f32) (ix2 j n) = maskedT2 m c (ix2 j n) := by
  obtain ⟨-, -, -, -, ⟨e0, e1⟩, -⟩ := blockIndex t
  refine Eq.trans ?_ (congrFun (Operands.weights2 m c) (ix2 j n))
  unfold iblk
  rw [View.read_apply]
  show V m c main_v4 _ = V m c main_v4 _
  congr 1
  funext a
  apply Fin.ext
  match a with
  | ⟨0, _⟩ => show win0_4.index t (0 : Fin 2) * 84 + 1 * j.val = j.val; rw [e0]; omega
  | ⟨1, _⟩ => show win0_4.index t (1 : Fin 2) * 168 + 1 * n.val = n.val; rw [e1]; omega

/-- The second bias window's block is the second bias as a row. -/
theorem bias2_apply (c : Dev nD) (t : Fin cfg0.N) (n : Fin 168) :
    (iblk m c 5 t : Vec Ideal S1x168 .f32) (ix2 (0 : Fin 1) n) = m ((c : Thread nD τ).loc main_arg4) (ix1 n) := by
  obtain ⟨-, -, -, -, -, ⟨e0, e1⟩, -⟩ := blockIndex t
  refine Eq.trans ?_ (Operands.row_apply (m ((c : Thread nD τ).loc main_arg4)) n)
  rw [← Operands.biasRow2 m c]
  unfold iblk
  rw [View.read_apply]
  show V m c main_v6 _ = V m c main_v6 _
  congr 1
  funext a
  apply Fin.ext
  match a with
  | ⟨0, _⟩ => show win0_5.index t (0 : Fin 2) * 1 + 1 * 0 = 0; rw [e0]
  | ⟨1, _⟩ => show win0_5.index t (1 : Fin 2) * 168 + 1 * n.val = n.val; rw [e1]; omega

/-! ## What a point stores is a block of the whole-array functions -/

/-- Entry `(p, q)` of the first block stored at `t` is `first` at any index `i` on row `2048 t + p`, column `q`. -/
theorem stored1_apply (c : Dev nD) (t : Fin cfg0.N) (p : Fin 2048) (q : Fin 84) (i : S262144x84.Idx)
    (hi0 : (i 0).val = t.val * 2048 + p.val) (hi1 : (i 1).val = q.val) :
    k0_pay1 (F := Ideal) (iblk m c 0 t) (iblk m c 1 t) (iblk m c 2 t) (iblk m c 3 t) (ix2 p q) = first m c i := by
  refine (Body.pay1_apply (iblk m c 0 t) (iblk m c 1 t) (iblk m c 2 t) (iblk m c 3 t) p q).trans ?_
  have hA : (fun (l : Fin 84) (k : Fin 168) => (iblk m c 1 t : Vec Ideal S84x168 .f32) (ix2 l k))
      = fun l k => maskedT1 m c (ix2 l k) := funext fun l => funext fun k => weights1_apply m c t l k
  have hb : (fun (k : Fin 168) => (iblk m c 2 t : Vec Ideal S1x168 .f32) (ix2 (0 : Fin 1) k))
      = fun k => m ((c : Thread nD τ).loc main_arg2) (ix1 k) := funext fun k => bias1_apply m c t k
  have hP : (fun (k : Fin 168) (j : Fin 84) => (iblk m c 3 t : Vec Ideal S168x84 .f32) (ix2 k j))
      = fun k j => poolT m c (ix2 k j) := funext fun k => funext fun j => pool_apply m c t k j
  have hx : (fun (l : Fin 84) => (iblk m c 0 t : Vec Ideal S2048x84 .f32) (ix2 p l))
      = fun l => flatInput m c (ix2 (i 0) l) := funext fun l => rows_apply m c t p l _ hi0 rfl
  have hq : q = i 1 := Fin.ext hi1.symm
  exact congr (congr (congr (congr (congrArg layer1 hA) hb) hP) hx) hq

/-- Entry `(p, n)` of the second block stored at `t` is `second` at any index `i` on row `2048 t + p`, column `n`. -/
theorem stored2_apply (c : Dev nD) (t : Fin cfg0.N) (p : Fin 2048) (n : Fin 168) (i : S262144x168.Idx)
    (hi0 : (i 0).val = t.val * 2048 + p.val) (hi1 : (i 1).val = n.val) :
    k0_pay2 (F := Ideal) (iblk m c 0 t) (iblk m c 1 t) (iblk m c 2 t) (iblk m c 3 t) (iblk m c 4 t) (iblk m c 5 t) (ix2 p n)
      = second m c i := by
  refine (Body.pay2_apply (iblk m c 0 t) (iblk m c 1 t) (iblk m c 2 t) (iblk m c 3 t) (iblk m c 4 t) (iblk m c 5 t) p n).trans ?_
  have hA : (fun (l : Fin 84) (k : Fin 168) => (iblk m c 1 t : Vec Ideal S84x168 .f32) (ix2 l k))
      = fun l k => maskedT1 m c (ix2 l k) := funext fun l => funext fun k => weights1_apply m c t l k
  have hb : (fun (k : Fin 168) => (iblk m c 2 t : Vec Ideal S1x168 .f32) (ix2 (0 : Fin 1) k))
      = fun k => m ((c : Thread nD τ).loc main_arg2) (ix1 k) := funext fun k => bias1_apply m c t k
  have hP : (fun (k : Fin 168) (j : Fin 84) => (iblk m c 3 t : Vec Ideal S168x84 .f32) (ix2 k j))
      = fun k j => poolT m c (ix2 k j) := funext fun k => funext fun j => pool_apply m c t k j
  have hA' : (fun (j : Fin 84) (n : Fin 168) => (iblk m c 4 t : Vec Ideal S84x168 .f32) (ix2 j n))
      = fun j n => maskedT2 m c (ix2 j n) := funext fun j => funext fun n => weights2_apply m c t j n
  have hb' : (fun (n : Fin 168) => (iblk m c 5 t : Vec Ideal S1x168 .f32) (ix2 (0 : Fin 1) n))
      = fun n => m ((c : Thread nD τ).loc main_arg4) (ix1 n) := funext fun n => bias2_apply m c t n
  have hx : (fun (l : Fin 84) => (iblk m c 0 t : Vec Ideal S2048x84 .f32) (ix2 p l))
      = fun l => flatInput m c (ix2 (i 0) l) := funext fun l => rows_apply m c t p l _ hi0 rfl
  have hn : n = i 1 := Fin.ext hi1.symm
  exact congr (congr (congr (congr (congr (congr (congrArg layer2 hA) hb) hP) hA') hb') hx) hn

/-- What point `t` writes back to the first result is block `t` of `first`. -/
theorem flushed1_eq (c : Dev nD) (t : Fin cfg0.N) :
    (dats m 0 c).flushed 6 t = ((cfg0.win 6).blk t).view.read (Elt Ideal) (first m c) := by
  obtain ⟨-, -, -, -, -, -, ⟨e0, e1⟩, -⟩ := blockIndex t
  rw [Value.flushed6]
  unfold out0_6
  rw [View.canon_unit_zero origin]
  simp only [View.ld_unit_zero (S := S2048x84) origin, View.ld_unit_zero (S := S84x168) origin,
    View.ld_unit_zero (S := S1x168) origin, View.ld_unit_zero (S := S168x84) origin]
  funext j
  show k0_pay1 (F := Ideal) (iblk m c 0 t) (iblk m c 1 t) (iblk m c 2 t) (iblk m c 3 t) j
    = first m c (((cfg0.win 6).blk t).view.emb j)
  refine (congrArg (k0_pay1 (F := Ideal) (iblk m c 0 t) (iblk m c 1 t) (iblk m c 2 t) (iblk m c 3 t)) (eq_ix2 j)).trans ?_
  exact stored1_apply m c t (j 0) (j 1) _
    (by show win0_6.index t (0 : Fin 2) * 2048 + 1 * (j 0).val = t.val * 2048 + (j 0).val; rw [e0]; omega)
    (by show win0_6.index t (1 : Fin 2) * 84 + 1 * (j 1).val = (j 1).val; rw [e1]; omega)

/-- What point `t` writes back to the second result is block `t` of `second`. -/
theorem flushed2_eq (c : Dev nD) (t : Fin cfg0.N) :
    (dats m 0 c).flushed 7 t = ((cfg0.win 7).blk t).view.read (Elt Ideal) (second m c) := by
  obtain ⟨-, -, -, -, -, -, -, ⟨e0, e1⟩⟩ := blockIndex t
  rw [Value.flushed7]
  unfold out0_7
  rw [View.canon_unit_zero origin]
  simp only [View.ld_unit_zero (S := S2048x84) origin, View.ld_unit_zero (S := S84x168) origin,
    View.ld_unit_zero (S := S1x168) origin, View.ld_unit_zero (S := S168x84) origin]
  funext j
  show k0_pay2 (F := Ideal) (iblk m c 0 t) (iblk m c 1 t) (iblk m c 2 t) (iblk m c 3 t) (iblk m c 4 t) (iblk m c 5 t) j
    = second m c (((cfg0.win 7).blk t).view.emb j)
  refine (congrArg (k0_pay2 (F := Ideal) (iblk m c 0 t) (iblk m c 1 t) (iblk m c 2 t) (iblk m c 3 t) (iblk m c 4 t)
    (iblk m c 5 t)) (eq_ix2 j)).trans ?_
  exact stored2_apply m c t (j 0) (j 1) _
    (by show win0_7.index t (0 : Fin 2) * 2048 + 1 * (j 0).val = t.val * 2048 + (j 0).val; rw [e0]; omega)
    (by show win0_7.index t (1 : Fin 2) * 168 + 1 * (j 1).val = (j 1).val; rw [e1]; omega)

/-! ## The blocks cover the arrays -/

/-- Row `r` of the first result lies in the block of point `r / 2048`. -/
theorem cover1 (i : S262144x84.Idx) :
    ∃ t : Fin cfg0.N, (cfg0.win 6).flush t = true ∧ i ∈ ((cfg0.win 6).blk t).view.set := by
  have h0 : (i 0).val < 262144 := (i 0).isLt
  have h1 : (i 1).val < 84 := (i 1).isLt
  have hN : grid0.N = 128 := N_0
  have ht : (i 0).val / 2048 < cfg0.N := by show _ < grid0.N; omega
  refine ⟨⟨(i 0).val / 2048, ht⟩, flush0_6 _, ?_⟩
  obtain ⟨-, -, -, -, -, -, ⟨e0, e1⟩, -⟩ := blockIndex ⟨(i 0).val / 2048, ht⟩
  show i ∈ ((View.whole main_v8_0).slice (win0_6.rect ⟨(i 0).val / 2048, ht⟩)).set
  rw [View.set_slice_whole, Rect.mem_set_unit]
  intro a
  match a with
  | ⟨0, _⟩ =>
    show win0_6.index _ (0 : Fin 2) * 2048 ≤ (i 0).val ∧ (i 0).val < win0_6.index _ (0 : Fin 2) * 2048 + 2048
    rw [e0]; show (i 0).val / 2048 * 2048 ≤ (i 0).val ∧ (i 0).val < (i 0).val / 2048 * 2048 + 2048; omega
  | ⟨1, _⟩ =>
    show win0_6.index _ (1 : Fin 2) * 84 ≤ (i 1).val ∧ (i 1).val < win0_6.index _ (1 : Fin 2) * 84 + 84
    rw [e1]; omega

/-- Row `r` of the second result lies in the block of point `r / 2048`. -/
theorem cover2 (i : S262144x168.Idx) :
    ∃ t : Fin cfg0.N, (cfg0.win 7).flush t = true ∧ i ∈ ((cfg0.win 7).blk t).view.set := by
  have h0 : (i 0).val < 262144 := (i 0).isLt
  have h1 : (i 1).val < 168 := (i 1).isLt
  have hN : grid0.N = 128 := N_0
  have ht : (i 0).val / 2048 < cfg0.N := by show _ < grid0.N; omega
  refine ⟨⟨(i 0).val / 2048, ht⟩, flush0_7 _, ?_⟩
  obtain ⟨-, -, -, -, -, -, -, ⟨e0, e1⟩⟩ := blockIndex ⟨(i 0).val / 2048, ht⟩
  show i ∈ ((View.whole main_v8_1).slice (win0_7.rect ⟨(i 0).val / 2048, ht⟩)).set
  rw [View.set_slice_whole, Rect.mem_set_unit]
  intro a
  match a with
  | ⟨0, _⟩ =>
    show win0_7.index _ (0 : Fin 2) * 2048 ≤ (i 0).val ∧ (i 0).val < win0_7.index _ (0 : Fin 2) * 2048 + 2048
    rw [e0]; show (i 0).val / 2048 * 2048 ≤ (i 0).val ∧ (i 0).val < (i 0).val / 2048 * 2048 + 2048; omega
  | ⟨1, _⟩ =>
    show win0_7.index _ (1 : Fin 2) * 168 ≤ (i 1).val ∧ (i 1).val < win0_7.index _ (1 : Fin 2) * 168 + 168
    rw [e1]; omega

/-! ## The arrays after the run -/

/-- The first result array ends holding `first`. -/
theorem final1 (c : Dev nD) : (dats m 0 c).arrAt 6 cfg0.N = first m c :=
  (dats m 0 c).arrAt_eq_of_cover 6 (first m c) (fun t _ => flushed1_eq m c t) (cover1)

/-- The second result array ends holding `second`. -/
theorem final2 (c : Dev nD) : (dats m 0 c).arrAt 7 cfg0.N = second m c :=
  (dats m 0 c).arrAt_eq_of_cover 7 (second m c) (fun t _ => flushed2_eq m c t) (cover2)

/-- The kernel's run, read: the two result arrays at `first` and `second` of the arguments, the arguments unchanged. -/
theorem run : θ_run defs (onTc (τ := τ) (main (F := Ideal))) ⟨m, fun _ => 0, ρ⟩ fun r => ∀ c : Dev nD,
      r.2.mem ((c : Thread nD τ).loc main_v8_0) = first m c
      ∧ r.2.mem ((c : Thread nD τ).loc main_v8_1) = second m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final1 m c), (h c).2.1.trans (final2 m c), (h c).2.2⟩)
    (Value.run_blocks m ρ)

end Cert.Encoder.Blocks

end
-- ==== Proof.RefRows.lean ====
/-
  The reference's two results are the encoder's two results of every row.

  The reference flattens the input to 262144 × 84, forms the masked weight matrices and transposes them, and then applies
  to the whole array what the specification applies to one row: a matrix product with the transposed masked weights plus
  the bias (broadcast down the rows), the product with the transposed pooling matrix, LeakyReLU; and, on that result, a
  second product plus bias and LeakyReLU. Read at entry `(r, q)`, each product is the sum over the contracted coordinate
  of the products of row `r` of the left operand and column `q` of the right one, the broadcast bias is its entry of the
  column, and the other operations act entry by entry: so the entry is `layer1` (or `layer2`) of row `r` of the flattened
  input, with the host-prepared matrices as they stand.
-/
import proofs.«130304_j45037027066546_1_alg».proof.Proof.Gen.ReferenceIdeal.Read
import proofs.«130304_j45037027066546_1_alg».proof.Proof.Spec

noncomputable section

namespace Cert.Encoder.Ref

open Idealize.ShloMosaic Idealize.ShloMosaic.ValueIdx Cert.ReferenceIdeal Cert.ReferenceIdeal.Read Cert.Encoder

/-! ## Which entries each operation reads -/

/-- The first product at `(r, k)` reads row `r` of the flattened input … -/
theorem rows1 (r : Fin 262144) (k : Fin 168) (l : Fin 84) : lidx_main_v3 (ix2 r k) l = ix2 r l :=
  funext fun a => Fin.ext (by match a with | ⟨0, _⟩ => rfl | ⟨1, _⟩ => rfl)
/-- … and column `k` of the transposed masked weights. -/
theorem cols1 (r : Fin 262144) (k : Fin 168) (l : Fin 84) : ridx_main_v3 (ix2 r k) l = ix2 l k :=
  funext fun a => Fin.ext (by match a with | ⟨0, _⟩ => rfl | ⟨1, _⟩ => rfl)
/-- The first bias, made a row and spread down the rows, reads at `(r, k)` its entry `k`. -/
theorem bias1 (r : Fin 262144) (k : Fin 168) : idx_main_v4 (idx_main_v5 (ix2 r k)) = ix1 k :=
  funext fun a => Fin.ext (by match a with | ⟨0, _⟩ => rfl)
/-- The pooling product at `(r, q)` reads row `r` of the first layer's output … -/
theorem rowsP (r : Fin 262144) (q : Fin 84) (k : Fin 168) : lidx_main_v8 (ix2 r q) k = ix2 r k :=
  funext fun a => Fin.ext (by match a with | ⟨0, _⟩ => rfl | ⟨1, _⟩ => rfl)
/-- … and column `q` of the transposed pooling matrix. -/
theorem colsP (r : Fin 262144) (q : Fin 84) (k : Fin 168) : ridx_main_v8 (ix2 r q) k = ix2 k q :=
  funext fun a => Fin.ext (by match a with | ⟨0, _⟩ => rfl | ⟨1, _⟩ => rfl)
/-- The second product at `(r, n)` reads row `r` of the first result … -/
theorem rows2 (r : Fin 262144) (n : Fin 168) (j : Fin 84) : lidx_main_v16 (ix2 r n) j = ix2 r j :=
  funext fun a => Fin.ext (by match a with | ⟨0, _⟩ => rfl | ⟨1, _⟩ => rfl)
/-- … and column `n` of the second transposed masked weights. -/
theorem cols2 (r : Fin 262144) (n : Fin 168) (j : Fin 84) : ridx_main_v16 (ix2 r n) j = ix2 j n :=
  funext fun a => Fin.ext (by match a with | ⟨0, _⟩ => rfl | ⟨1, _⟩ => rfl)
/-- The second bias reads at `(r, n)` its entry `n`. -/
theorem bias2 (r : Fin 262144) (n : Fin 168) : idx_main_v17 (idx_main_v18 (ix2 r n)) = ix1 n :=
  funext fun a => Fin.ext (by match a with | ⟨0, _⟩ => rfl)

/-! ## The two results, entry by entry -/

variable (x0 : (⟨S262144x28x3, .f32⟩ : BufTy).Contents (Elt Ideal)) (x1 : (⟨S168x84, .f32⟩ : BufTy).Contents (Elt Ideal))
  (x2 : (⟨S168, .f32⟩ : BufTy).Contents (Elt Ideal)) (x3 : (⟨S168x84, .f32⟩ : BufTy).Contents (Elt Ideal))
  (x4 : (⟨S168, .f32⟩ : BufTy).Contents (Elt Ideal)) (x5 x6 : (⟨S168x84, .f32⟩ : BufTy).Contents (Elt Ideal))
  (x7 : (⟨S84x168, .f32⟩ : BufTy).Contents (Elt Ideal))

/-- Entry `(r, q)` of the reference's first result is `layer1` of row `r` of the flattened input, at `q`. -/
theorem first_apply (r : Fin 262144) (q : Fin 84) :
    val_main_v13 (F := Ideal) x0 x1 x2 x5 x7 (ix2 r q)
      = layer1 (fun l k => val_main_v2 (F := Ideal) x1 x5 (ix2 l k)) (fun k => x2 (ix1 k))
          (fun k j => val_main_v7 (F := Ideal) x7 (ix2 k j)) (fun l => val_main_v0 (F := Ideal) x0 (ix2 r l)) q := by
  rw [val_main_v13_apply, val_main_v10_apply, val_main_v12_apply, val_main_v9_apply, val_main_v11_apply,
    val_main_cst_apply, val_main_cst_0_apply, val_main_v8_apply]
  simp only [rowsP, colsP, val_main_v6_apply, val_main_v3_apply, rows1, cols1, val_main_v5_apply, val_main_v4_apply, bias1]
  rfl

/-- The reference's first result is `out1` of the flattened input and the host-prepared matrices. -/
theorem first_eq :
    val_main_v13 (F := Ideal) x0 x1 x2 x5 x7
      = out1 (val_main_v0 (F := Ideal) x0) (val_main_v2 (F := Ideal) x1 x5) x2 (val_main_v7 (F := Ideal) x7) := by
  funext i
  obtain ⟨r, q, rfl⟩ : ∃ (r : Fin 262144) (q : Fin 84), i = ix2 r q := ⟨i 0, i 1, eq_ix2 i⟩
  exact first_apply x0 x1 x2 x5 x7 r q

/-- Entry `(r, n)` of the reference's second result is `layer2` of row `r` of the flattened input, at `n`. -/
theorem second_apply (r : Fin 262144) (n : Fin 168) :
    val_main_v24 (F := Ideal) x0 x1 x2 x3 x4 x5 x6 x7 (ix2 r n)
      = layer2 (fun l k => val_main_v2 (F := Ideal) x1 x5 (ix2 l k)) (fun k => x2 (ix1 k))
          (fun k j => val_main_v7 (F := Ideal) x7 (ix2 k j)) (fun j n => val_main_v15 (F := Ideal) x3 x6 (ix2 j n))
          (fun n => x4 (ix1 n)) (fun l => val_main_v0 (F := Ideal) x0 (ix2 r l)) n := by
  rw [val_main_v24_apply, val_main_v21_apply, val_main_v23_apply, val_main_v20_apply, val_main_v22_apply,
    val_main_cst_1_apply, val_main_cst_2_apply, val_main_v19_apply, val_main_v16_apply, val_main_v18_apply,
    val_main_v17_apply]
  simp only [rows2, cols2, first_apply, bias2]
  unfold layer2 leaky affine
  rfl

/-- The reference's second result is `out2` of the flattened input and the host-prepared matrices. -/
theorem second_eq :
    val_main_v24 (F := Ideal) x0 x1 x2 x3 x4 x5 x6 x7
      = out2 (val_main_v0 (F := Ideal) x0) (val_main_v2 (F := Ideal) x1 x5) x2 (val_main_v7 (F := Ideal) x7)
          (val_main_v15 (F := Ideal) x3 x6) x4 := by
  funext i
  obtain ⟨r, n, rfl⟩ : ∃ (r : Fin 262144) (n : Fin 168), i = ix2 r n := ⟨i 0, i 1, eq_ix2 i⟩
  exact second_apply x0 x1 x2 x3 x4 x5 x6 x7 r n

end Cert.Encoder.Ref

end
-- ==== Proof.lean ====
/-
  A two-layer encoder over 262144 rows: the kernel against its plain reference, as extended reals.

  Both programs flatten the input to 262144 × 84, multiply each weight matrix by its mask and transpose it, and compute,
  for every row `x`, `out1 = leaky ((x · A₁ + b₁) · P)` and `out2 = leaky (out1 · A₂ + b₂)`, where `P` is the transposed
  pooling matrix and `leaky v` is `v` where `v ≥ 0` and `0.2 · v` elsewhere. The reference does this with whole-array
  products; the kernel does it for 2048 rows at each of 128 grid points, with matrix products into a zero accumulator
  and changes of float format that are the identity on extended reals. Read entry by entry, both are the same sums of the
  same products in the same order, the same comparison against the same zero word and the same product with the same
  slope word: no law of arithmetic is needed beyond reading each operation at an entry, and finiteness of the inputs is
  never used.

  The modules: `Spec` (the encoder of one row, and of every row of an array), `RefRows` (the reference's two results are
  the specification's), `Payload` (the kernel body's two stored blocks, read at an entry), `Operands` (what the region finds
  in the staged arrays), `Blocks` (from the blocks the grid points write to the whole result arrays). Below, the three
  frames, the idealization (the ideal pass rewrote nothing) and the equality of the results are put together.
-/
import proofs.«130304_j45037027066546_1_alg».proof.Defs
import proofs.«130304_j45037027066546_1_alg».proof.Proof.Gen.Kernel
import proofs.«130304_j45037027066546_1_alg».proof.Proof.Gen.Kernel.Skeleton
import proofs.«130304_j45037027066546_1_alg».proof.Proof.Gen.Kernel.Launch
import proofs.«130304_j45037027066546_1_alg».proof.Proof.Gen.Kernel.Points
import proofs.«130304_j45037027066546_1_alg».proof.Proof.Gen.Kernel.Frame
import proofs.«130304_j45037027066546_1_alg».proof.Proof.Gen.KernelIdeal
import proofs.«130304_j45037027066546_1_alg».proof.Proof.Gen.KernelIdeal.Skeleton
import proofs.«130304_j45037027066546_1_alg».proof.Proof.Gen.KernelIdeal.Launch
import proofs.«130304_j45037027066546_1_alg».proof.Proof.Gen.KernelIdeal.Points
import proofs.«130304_j45037027066546_1_alg».proof.Proof.Gen.KernelIdeal.Frame
import proofs.«130304_j45037027066546_1_alg».proof.Proof.Gen.ReferenceIdeal
import proofs.«130304_j45037027066546_1_alg».proof.Proof.Gen.Pre_finite_inputs
import proofs.«130304_j45037027066546_1_alg».proof.Proof.Gen.KernelIdeal.Value
import proofs.«130304_j45037027066546_1_alg».proof.Proof.Gen.ReferenceIdeal.Run
import proofs.«130304_j45037027066546_1_alg».proof.Proof.Gen.ReferenceIdeal.Read
import proofs.«130304_j45037027066546_1_alg».proof.Proof.Blocks
import proofs.«130304_j45037027066546_1_alg».proof.Proof.RefRows
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- So does the reference: its run, with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealized kernel is the kernel's own text: no operation was rewritten. -/
theorem preserves : Cert.preserves_Kernel_KernelIdeal := trivial

/-- From memories that agree on the arguments the kernel ends with the input unchanged and its two result arrays at the
    encoder's two results of every row (`Blocks.run`), and the reference ends with the same three arrays
    (`Ref.first_eq`, `Ref.second_eq`, over the same prepared operands). -/
theorem algebraic : Cert.algebraic_KernelIdeal_ReferenceIdeal := by
  intro m ρ m' ρ' _ hagree
  refine ⟨fun c => m ((c : Thread Cert.KernelIdeal.nD Cert.KernelIdeal.τ).loc Cert.KernelIdeal.main_arg0),
    fun c => Cert.Encoder.Blocks.first m c, fun c => Cert.Encoder.Blocks.second m c, ?_, ?_⟩
  · exact (θ_run Cert.KernelIdeal.defs _ _).mono (fun _ h c => ⟨(h c).2.2.1, (h c).1, (h c).2.1, (h c).2.2⟩)
      (Cert.Encoder.Blocks.run m ρ)
  · refine (θ_run Cert.ReferenceIdeal.defs _ _).mono (fun _ h c => ?_)
      (Cert.ReferenceIdeal.Value.run (F := Ideal) m' ρ')
    obtain ⟨a0, a1, a2, a3, a4, a5, a6, a7⟩ := hagree c
    refine ⟨(h c).1.trans a0, (h c).2.1.trans ?_, (h c).2.2.1.trans ?_, (h c).2.2.2⟩
    · rw [Cert.ReferenceIdeal.Read.val_main_v13_eq, Cert.Encoder.Ref.first_eq, a0, a1, a2, a5, a7]
      rfl
    · rw [Cert.ReferenceIdeal.Read.val_main_v24_eq, Cert.Encoder.Ref.second_eq, a0, a1, a2, a3, a4, a5, a6, a7]
      rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
